-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x11x512x512 : Shape := ⟨4, ![8, 11, 512, 512]⟩
abbrev S8x512x512 : Shape := ⟨3, ![8, 512, 512]⟩
abbrev S_ : Shape := ⟨0, ![]⟩

class Facts : Prop where
  bcast_S_S8x11x512x512 : S_.BroadcastsInDim S8x11x512x512 (![] : Fin 0 → Fin S8x11x512x512.rank)
  reducesTo_S8x11x512x512_S_d0_1_2_3 : S8x11x512x512.ReducesTo [0, 1, 2, 3] S_
  h_S_ : 0 < S_.numel

variable [Facts]

def fn {F : FTy → Type} [FloatOps F] (main_arg0 : FVec F S8x11x512x512 .f32) (main_arg1 : IVec S8x512x512 32) : IVec S_ 1 :=
  let main_v0 : FVec F S8x11x512x512 .f32 := Host.absf main_arg0
  let main_cst : FVec F S_ .f32 := constant S_ .f32 0x7F800000#32
  let main_v1 : FVec F S8x11x512x512 .f32 := broadcastInDim S8x11x512x512 ![] bcast_S_S8x11x512x512 main_cst
  let main_v2 : IVec S8x11x512x512 1 := cmpf .olt main_v0 main_v1
  let main_c : IVec S_ 1 := constantI S_ 1 1#1
  let main_v3 : IVec S_ 1 := (fun x v => Host.reduce IntOp.andi x v reducesTo_S8x11x512x512_S_d0_1_2_3 h_S_) main_v2 main_c
  main_v3
-- ==== Kernel.lean ====
abbrev S8x11x512x512 : Shape := ⟨4, ![8, 11, 512, 512]⟩
abbrev S8x512x512 : Shape := ⟨3, ![8, 512, 512]⟩
abbrev S11 : Shape := ⟨1, ![11]⟩
abbrev S1x11x128x512 : Shape := ⟨4, ![1, 11, 128, 512]⟩
abbrev S1x128x512 : Shape := ⟨3, ![1, 128, 512]⟩
abbrev S11x128x512 : Shape := ⟨3, ![11, 128, 512]⟩
abbrev S128x512 : Shape := ⟨2, ![128, 512]⟩
abbrev S1 : Shape := ⟨1, ![1]⟩
abbrev S1x1x1 : Shape := ⟨3, ![1, 1, 1]⟩
abbrev S_ : Shape := ⟨0, ![]⟩

abbrev nBuf : Space → Nat
  | .hbm => 20
  | .vmem => 6
  | .smem => 0
  | _ => 0

abbrev bufTy : (tb : Table) → Fin (tcTables nBuf tb) → BufTy
  | .hbm, ⟨0, _⟩ => ⟨S8x11x512x512, .f32⟩
  | .hbm, ⟨1, _⟩ => ⟨S8x512x512, .i32⟩
  | .hbm, ⟨2, _⟩ => ⟨S11, .f32⟩
  | .hbm, ⟨3, _⟩ => ⟨S11, .f32⟩
  | .hbm, ⟨4, _⟩ => ⟨S_, .f32⟩
  | .hbm, ⟨5, _⟩ => ⟨S11, .f32⟩
  | .hbm, ⟨6, _⟩ => ⟨S11, .f32⟩
  | .hbm, ⟨7, _⟩ => ⟨S_, .f32⟩
  | .hbm, ⟨8, _⟩ => ⟨S11, .f32⟩
  | .hbm, ⟨9, _⟩ => ⟨S11, .f32⟩
  | .hbm, ⟨10, _⟩ => ⟨S_, .f32⟩
  | .hbm, ⟨11, _⟩ => ⟨S11, .f32⟩
  | .hbm, ⟨12, _⟩ => ⟨S11, .f32⟩
  | .hbm, ⟨13, _⟩ => ⟨S11, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x11x128x512, .f32⟩
  | .local _ .vmem, ⟨1, _⟩ => ⟨S1x11x128x512, .f32⟩
  | .local _ .vmem, ⟨2, _⟩ => ⟨S1x128x512, .i32⟩
  | .local _ .vmem, ⟨3, _⟩ => ⟨S1x128x512, .i32⟩
  | .local _ .vmem, ⟨4, _⟩ => ⟨S11, .f32⟩
  | .local _ .vmem, ⟨5, _⟩ => ⟨S11, .f32⟩
  | _, _ => ⟨S8x11x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x11x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S11_S11_0 : ∀ a, (![0] : Fin 1 → Nat) a + S11.size a ≤ S11.size a
  h_S11 : 0 < S11.numel
  inb_S1x11x128x512_S1x11x128x512_0_0_0_0 : ∀ a, (![0, 0, 0, 0] : Fin 4 → Nat) a + S1x11x128x512.size a ≤ S1x11x128x512.size a
  h_S1x11x128x512 : 0 < S1x11x128x512.numel
  shapeCasts_S1x11x128x512_S11x128x512 : S1x11x128x512.ShapeCasts S11x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S11x128x512_S128x512 : S11x128x512.Reduces [0] S128x512
  shapeCasts_S128x512_S1x128x512 : S128x512.ShapeCasts S1x128x512
  broadcasts_S1x128x512_S11x128x512 : S1x128x512.Broadcasts S11x128x512
  natLt_1_32 : 1 < 32
  slices_S11x128x512_o0_0_0_S1x128x512 : S11x128x512.Slices ![0, 0, 0] S1x128x512
  reduces_S1x128x512_S1 : S1x128x512.Reduces [1, 2] S1
  shapeCasts_S1_S1x1x1 : S1.ShapeCasts S1x1x1
  inpos_S1x1x1_p0_0_0 : ∀ a, (![0, 0, 0] : Fin 3 → Nat) a < S1x1x1.size a
  slices_S11x128x512_o1_0_0_S1x128x512 : S11x128x512.Slices ![1, 0, 0] S1x128x512
  slices_S11x128x512_o2_0_0_S1x128x512 : S11x128x512.Slices ![2, 0, 0] S1x128x512
  slices_S11x128x512_o3_0_0_S1x128x512 : S11x128x512.Slices ![3, 0, 0] S1x128x512
  slices_S11x128x512_o4_0_0_S1x128x512 : S11x128x512.Slices ![4, 0, 0] S1x128x512
  slices_S11x128x512_o5_0_0_S1x128x512 : S11x128x512.Slices ![5, 0, 0] S1x128x512
  slices_S11x128x512_o6_0_0_S1x128x512 : S11x128x512.Slices ![6, 0, 0] S1x128x512
  slices_S11x128x512_o7_0_0_S1x128x512 : S11x128x512.Slices ![7, 0, 0] S1x128x512
  slices_S11x128x512_o8_0_0_S1x128x512 : S11x128x512.Slices ![8, 0, 0] S1x128x512
  slices_S11x128x512_o9_0_0_S1x128x512 : S11x128x512.Slices ![9, 0, 0] S1x128x512
  slices_S11x128x512_o10_0_0_S1x128x512 : S11x128x512.Slices ![10, 0, 0] S1x128x512
  shapeCasts_S11_S11 : S11.ShapeCasts S11
  concatenates_S1_S1_S1_S1_S1_S1_S1_S1_S1_S1_S1_S11_d0 : Shape.Concatenates [S1, S1, S1, S1, S1, S1, S1, S1, S1, S1, S1] S11 0
  bcast_S_S11 : S_.BroadcastsInDim S11 (![] : Fin 0 → Fin S11.rank)
  reducesTo_S11_S_d0 : S11.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x11x128x512.size a ≤ S8x11x512x512.size a
  hwx0_0 : ∀ i : grid0.Coords, EltTy.bits .f32 = 32 ∨ (Rect.block (s := S8x11x512x512) S1x11x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11.size a ≤ S11.size a
  hwx0_2 : ∀ i : grid0.Coords, EltTy.bits .f32 = 32 ∨ (Rect.block (s := S11) S11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11.size a ≤ S11.size a
  hwx0_3 : ∀ i : grid0.Coords, EltTy.bits .f32 = 32 ∨ (Rect.block (s := S11) S11.size (cc0_transform_3 i) (hinb0_3 i)).WholeWords (EltTy.packing .f32)

variable [Facts₀]

abbrev win0_0 : Pipeline.Window sig grid0 :=
  Pipeline.Window.ofSpec (Memref.whole main_arg0) S1x11x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S11.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S11.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x11x512x512 : Shape := ⟨4, ![8, 11, 512, 512]⟩
abbrev S8x512x512 : Shape := ⟨3, ![8, 512, 512]⟩
abbrev S_ : Shape := ⟨0, ![]⟩
abbrev S8x1x512x512 : Shape := ⟨4, ![8, 1, 512, 512]⟩
abbrev S8x512x512x1 : Shape := ⟨4, ![8, 512, 512, 1]⟩
abbrev S1x1x1x11 : Shape := ⟨4, ![1, 1, 1, 11]⟩
abbrev S8x512x512x11 : Shape := ⟨4, ![8, 512, 512, 11]⟩
abbrev S11 : Shape := ⟨1, ![11]⟩

abbrev nBuf : Space → Nat
  | .hbm => 54
  | .vmem => 0
  | .smem => 0
  | _ => 0

abbrev bufTy : (tb : Table) → Fin (tcTables nBuf tb) → BufTy
  | .hbm, ⟨0, _⟩ => ⟨S8x11x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x11x512x512, .f32⟩
  | .hbm, ⟨9, _⟩ => ⟨S8x11x512x512, .f32⟩
  | .hbm, ⟨10, _⟩ => ⟨S8x11x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x11x512x512, .f32⟩
  | .hbm, ⟨15, _⟩ => ⟨S8x11x512x512, .f32⟩
  | .hbm, ⟨16, _⟩ => ⟨S8x512x512x1, .i32⟩
  | .hbm, ⟨17, _⟩ => ⟨S1x1x1x11, .i32⟩
  | .hbm, ⟨18, _⟩ => ⟨S8x512x512x11, .i32⟩
  | .hbm, ⟨19, _⟩ => ⟨S8x512x512x11, .i32⟩
  | .hbm, ⟨20, _⟩ => ⟨S8x512x512x11, .i1⟩
  | .hbm, ⟨21, _⟩ => ⟨S8x512x512x11, .f32⟩
  | .hbm, ⟨22, _⟩ => ⟨S8x11x512x512, .f32⟩
  | .hbm, ⟨23, _⟩ => ⟨S_, .i32⟩
  | .hbm, ⟨24, _⟩ => ⟨S8x512x512, .i32⟩
  | .hbm, ⟨25, _⟩ => ⟨S8x512x512, .i1⟩
  | .hbm, ⟨26, _⟩ => ⟨S8x1x512x512, .i1⟩
  | .hbm, ⟨27, _⟩ => ⟨S8x1x512x512, .f32⟩
  | .hbm, ⟨28, _⟩ => ⟨S8x11x512x512, .f32⟩
  | .hbm, ⟨29, _⟩ => ⟨S8x11x512x512, .f32⟩
  | .hbm, ⟨30, _⟩ => ⟨S8x11x512x512, .f32⟩
  | .hbm, ⟨31, _⟩ => ⟨S8x11x512x512, .f32⟩
  | .hbm, ⟨32, _⟩ => ⟨S8x11x512x512, .f32⟩
  | .hbm, ⟨33, _⟩ => ⟨S_, .f32⟩
  | .hbm, ⟨34, _⟩ => ⟨S11, .f32⟩
  | .hbm, ⟨35, _⟩ => ⟨S8x11x512x512, .f32⟩
  | .hbm, ⟨36, _⟩ => ⟨S_, .f32⟩
  | .hbm, ⟨37, _⟩ => ⟨S11, .f32⟩
  | .hbm, ⟨38, _⟩ => ⟨S_, .f32⟩
  | .hbm, ⟨39, _⟩ => ⟨S11, .f32⟩
  | .hbm, ⟨40, _⟩ => ⟨S11, .f32⟩
  | .hbm, ⟨41, _⟩ => ⟨S_, .f32⟩
  | .hbm, ⟨42, _⟩ => ⟨S11, .f32⟩
  | .hbm, ⟨43, _⟩ => ⟨S11, .f32⟩
  | .hbm, ⟨44, _⟩ => ⟨S_, .f32⟩
  | .hbm, ⟨45, _⟩ => ⟨S11, .f32⟩
  | .hbm, ⟨46, _⟩ => ⟨S11, .f32⟩
  | .hbm, ⟨47, _⟩ => ⟨S11, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8x11x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  reducesTo_S8x11x512x512_S8x512x512_d1 : S8x11x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x11x512x512_0_1_2_3 : S8x1x512x512.BroadcastsInDim S8x11x512x512 (![0, 1, 2, 3] : Fin 4 → Fin S8x11x512x512.rank)
  bcast_S8x512x512_S8x512x512x1_0_1_2 : S8x512x512.BroadcastsInDim S8x512x512x1 (![0, 1, 2] : Fin 3 → Fin S8x512x512x1.rank)
  bcast_S8x512x512x1_S8x512x512x11_0_1_2_3 : S8x512x512x1.BroadcastsInDim S8x512x512x11 (![0, 1, 2, 3] : Fin 4 → Fin S8x512x512x11.rank)
  bcast_S1x1x1x11_S8x512x512x11_0_1_2_3 : S1x1x1x11.BroadcastsInDim S8x512x512x11 (![0, 1, 2, 3] : Fin 4 → Fin S8x512x512x11.rank)
  transposes_S8x512x512x11_S8x11x512x512_0_3_1_2 : S8x512x512x11.Transposes [0, 3, 1, 2] S8x11x512x512
  reducesTo_S8x11x512x512_S11_d0_2_3 : S8x11x512x512.ReducesTo [0, 2, 3] S11
  bcast_S_S11 : S_.BroadcastsInDim S11 (![] : Fin 0 → Fin S11.rank)
  reducesTo_S11_S_d0 : S11.ReducesTo [0] S_

variable [Facts₀]

class Facts : Prop extends Facts₀ where

variable [Facts]
-- ==== Proof.Body.lean ====
/-
  What the kernel's body leaves in its two accumulators at one grid point, said in one vocabulary.

  A grid point sees a block of the logits, eleven planes of 128 x 512 entries, and the matching plane of targets. The
  body forms the softmax over the eleven planes at every position (`k0_pay5`), the 0/1 mask "target is not 255"
  (`k0_pay6`), and for each class k the masked probability plane `maskedProb k` (plane k of the softmax times the mask)
  and the masked one-hot plane `maskedHot k` ("target is k" as 0/1, times the mask). The first accumulator receives, in
  entry k, the sum over the plane of the product of the two; the second the sum over the plane of their sum. Each
  accumulator is read, the eleven plane sums are added entry by entry, and the result is stored back; at the first grid
  point the accumulators are first set to zero.

  The printed body computes the twenty-two plane sums in one long straight line; the names below say what each piece
  is, and the four theorems at the end say what each of the two control cases leaves in each accumulator.
-/
import proofs.«139630_j8839042695183_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz1 : (![0] : Fin 1 → Nat) = fun _ => 0 := funext fun a => by fin_cases a; rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Plane `n` of an array of eleven planes is a block of it. -/
theorem slice_plane (n : Fin 11) : S11x128x512.Slices ![n.val, 0, 0] S1x128x512 :=
  ⟨rfl, fun a => match a with
    | ⟨0, _⟩ => by show n.val + 1 ≤ 11; have := n.isLt; omega
    | ⟨1, _⟩ => by show 0 + 128 ≤ 128; omega
    | ⟨2, _⟩ => by show 0 + 512 ≤ 512; omega⟩

/-- Plane `k` of the softmax, times the mask. -/
def maskedProb (k : ℕ) (hs : S11x128x512.Slices ![k, 0, 0] S1x128x512) (p : FVec F S11x128x512 .f32)
    (mk : FVec F S128x512 .f32) : FVec F S128x512 .f32 :=
  mulf (shapeCast S128x512 (extractStridedSlice S1x128x512 ![k, 0, 0] p hs) shapeCasts_S1x128x512_S128x512) mk

/-- "The target is class `k`" as 0/1, times the mask. -/
def maskedHot (k : ℕ) (t : IVec S128x512 32) (mk : FVec F S128x512 .f32) : FVec F S128x512 .f32 :=
  mulf (sitofp .f32 (extui 32 (cmpi .eq t (broadcast S128x512 (BitVec.ofNat 32 k))) natLt_1_32)) mk

/-- The sum of a plane's entries, as the one scalar the body extracts. -/
def planeSum (v : FVec F S128x512 .f32) : F .f32 :=
  extractAt ![0, 0, 0] (shapeCast S1x1x1 (multiReduction .add [1, 2] S1 (shapeCast S1x128x512 v shapeCasts_S128x512_S1x128x512)
    0x00000000#32 reduces_S1x128x512_S1 (.inl rfl) rfl) shapeCasts_S1_S1x1x1) inpos_S1x1x1_p0_0_0

/-- The first accumulator after the body: entry `k` grows by the plane sum of the product. -/
def accInter (t : IVec S128x512 32) (p : FVec F S11x128x512 .f32) (mk : FVec F S128x512 .f32) (acc : Vec F S11 .f32) :
    FVec F S11 .f32 :=
  addf (shapeCast S11 acc shapeCasts_S11_S11)
    (concatenate S11 0 (List.ofFn fun n : Fin 11 => (⟨S1, broadcast S1
      (planeSum (mulf (maskedProb n.val (slice_plane n) p mk) (maskedHot n.val t mk)))⟩ : (s : Shape) × (s.Idx → F .f32)))
      concatenates_S1_S1_S1_S1_S1_S1_S1_S1_S1_S1_S1_S11_d0)

/-- The second accumulator after the body: entry `k` grows by the plane sum of the sum. -/
def accCard (t : IVec S128x512 32) (p : FVec F S11x128x512 .f32) (mk : FVec F S128x512 .f32) (acc : Vec F S11 .f32) :
    FVec F S11 .f32 :=
  addf (shapeCast S11 acc shapeCasts_S11_S11)
    (concatenate S11 0 (List.ofFn fun n : Fin 11 => (⟨S1, broadcast S1
      (planeSum (addf (maskedProb n.val (slice_plane n) p mk) (maskedHot n.val t mk)))⟩ : (s : Shape) × (s.Idx → F .f32)))
      concatenates_S1_S1_S1_S1_S1_S1_S1_S1_S1_S1_S1_S11_d0)

/-- The zero vector the first grid point stores before accumulating. -/
abbrev zero11 : Vec F S11 .f32 := broadcast S11 (Scalar.ofBits .f32 0x00000000#32)

section
variable (c : Dev nD) (i : grid0.Coords) (a2 : Memref sig .tc .vmem S1x11x128x512 .f32) (h2 : a2.IsWhole)
    (a3 : Memref sig .tc .vmem S1x128x512 .i32) (h3 : a3.IsWhole) (a4 : Memref sig .tc .vmem S11 .f32) (h4 : a4.IsWhole)
    (a5 : Memref sig .tc .vmem S11 .f32) (h5 : a5.IsWhole)

/-- Past the first grid point the first accumulator, holding `xo2`, ends at `xo2` plus the eleven plane sums of the products. -/
theorem out_B_2 (hc : ¬cond0_0 i) (x0 : Vec F S1x11x128x512 .f32) (x1 : Vec F S1x128x512 .i32) (xo2 xo3 : Vec F S11 .f32) :
    out0_B_2 c i a2 h2 a3 h3 a4 h4 a5 h5 hc x0 x1 xo2 xo3 = accInter (k0_pay4 x1) (k0_pay5 x0) (k0_pay6 x1) xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz1]
  simp only [View.readAt_eq_ld, h2.read_unread, h3.read_unread, h4.read_unread, h5.read_unread, View.ld_unit_zero (S := S11) hz1,
    View.ld_unit_zero (S := S1x128x512) hz3, View.ld_unit_zero (S := S1x11x128x512) hz4]
  rfl

/-- Past the first grid point the second accumulator, holding `xo3`, ends at `xo3` plus the eleven plane sums of the sums. -/
theorem out_B_3 (hc : ¬cond0_0 i) (x0 : Vec F S1x11x128x512 .f32) (x1 : Vec F S1x128x512 .i32) (xo2 xo3 : Vec F S11 .f32) :
    out0_B_3 c i a2 h2 a3 h3 a4 h4 a5 h5 hc x0 x1 xo2 xo3 = accCard (k0_pay4 x1) (k0_pay5 x0) (k0_pay6 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz1]
  simp only [View.readAt_eq_ld, h2.read_unread, h3.read_unread, h4.read_unread, h5.read_unread, View.ld_unit_zero (S := S11) hz1,
    View.ld_unit_zero (S := S1x128x512) hz3, View.ld_unit_zero (S := S1x11x128x512) hz4]
  rfl

/-- At the first grid point the first accumulator is set to zero, read back, and ends at zero plus the plane sums. -/
theorem out_A_2 (hc : cond0_0 i) (x0 : Vec F S1x11x128x512 .f32) (x1 : Vec F S1x128x512 .i32) :
    out0_A_2 c i a2 h2 a3 h3 a4 h4 a5 h5 hc x0 x1 = accInter (k0_pay4 x1) (k0_pay5 x0) (k0_pay6 x1) zero11 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S11) hz1, View.readCov_unit_zero (S := S11) _ hz1]
  simp only [View.readAt_eq_ld, h2.read_unread, h3.read_unread, View.ld_unit_zero (S := S11) hz1,
    View.ld_unit_zero (S := S1x128x512) hz3, View.ld_unit_zero (S := S1x11x128x512) hz4]
  rfl

/-- At the first grid point the second accumulator likewise. -/
theorem out_A_3 (hc : cond0_0 i) (x0 : Vec F S1x11x128x512 .f32) (x1 : Vec F S1x128x512 .i32) :
    out0_A_3 c i a2 h2 a3 h3 a4 h4 a5 h5 hc x0 x1 = accCard (k0_pay4 x1) (k0_pay5 x0) (k0_pay6 x1) zero11 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S11) hz1, View.readCov_unit_zero (S := S11) _ hz1]
  simp only [View.readAt_eq_ld, h2.read_unread, h3.read_unread, View.ld_unit_zero (S := S11) hz1,
    View.ld_unit_zero (S := S1x128x512) hz3, View.ld_unit_zero (S := S1x11x128x512) hz4]
  rfl

end

end Cert.KernelIdeal.Body

end
-- ==== Proof.Spec.lean ====
/-
  The two per-class sums of the dice score, as functions of the two argument arrays, on the extended reals.

  At a position (b, h, w) the eleven logits x_0 … x_10 give the softmax  s_k = exp (x_k - M) / ∑_j exp (x_j - M),  M the
  largest of them (taken from -infinity, as both programs take it). The target t there gives two 0/1 factors: "t is not
  255" (the position counts) and "t is class k". Class k's two terms at the position are

      p_k = s_k · [t ≠ 255]          q_k = [t = k] · [t ≠ 255]

  and the two sums are, over all 8 · 512 · 512 positions,   inter k = ∑ p_k · q_k   and   card k = ∑ (p_k + q_k).
  Nothing here needs the logits to be finite: the sums are regrouped, never distributed over.
-/
import Idealize.ShloMosaic.PureOps.Ideal
import Idealize.ShloMosaic.Lib.ValueIdx

noncomputable section

open Idealize.ShloMosaic Idealize.ShloMosaic.ValueIdx

namespace Cert.Dice

/-- The largest of eleven values, from -infinity. -/
def shift (x : Fin 11 → EReal) : EReal :=
  max (Ideal.ofBits .f32 0xFF800000#32) ((Finset.univ : Finset (Fin 11)).fold max ⊥ x)

/-- Entry `k` of the softmax of eleven values. -/
def smax (x : Fin 11 → EReal) (k : Fin 11) : EReal :=
  Ideal.div (Ideal.exp (x k - shift x)) (∑ j : Fin 11, Ideal.exp (x j - shift x))

/-- A condition as the number 0 or 1. -/
def bitVal (b : BitVec 1) : EReal := ((b.toNat : ℝ) : EReal)

/-- "The position counts": its target is not 255. -/
def keep (t : BitVec 32) : EReal := bitVal (IntOp.cmpi .ne t 255#32)

/-- "The target is class `k`". -/
def hot (t : BitVec 32) (k : ℕ) : EReal := bitVal (IntOp.cmpi .eq t (BitVec.ofNat 32 k))

/-- Class `k`'s masked probability at a position with logits `x` and target `t`. -/
def pTerm (x : Fin 11 → EReal) (t : BitVec 32) (k : Fin 11) : EReal := smax x k * keep t

/-- Class `k`'s masked one-hot value at a position with target `t`. -/
def qTerm (t : BitVec 32) (k : Fin 11) : EReal := hot t k.val * keep t

/-- The position's term of the first sum, and of the second. -/
def interTerm (x : Fin 11 → EReal) (t : BitVec 32) (k : Fin 11) : EReal := pTerm x t k * qTerm t k
def cardTerm (x : Fin 11 → EReal) (t : BitVec 32) (k : Fin 11) : EReal := pTerm x t k + qTerm t k

/-- The eleven logits at a position of the whole array. -/
def col (X : (⟨4, ![8, 11, 512, 512]⟩ : Shape).Idx → EReal) (b : Fin 8) (h w : Fin 512) : Fin 11 → EReal :=
  fun k => X (ix4 b k h w)

/-- A per-position term summed over every position of the arrays. -/
def total (g : (Fin 11 → EReal) → BitVec 32 → Fin 11 → EReal) (X : (⟨4, ![8, 11, 512, 512]⟩ : Shape).Idx → EReal)
    (T : (⟨3, ![8, 512, 512]⟩ : Shape).Idx → BitVec 32) (k : Fin 11) : EReal :=
  ∑ b : Fin 8, ∑ h : Fin 512, ∑ w : Fin 512, g (col X b h w) (T (ix3 b h w)) k

/-- A per-position term summed over one block of 128 rows: rows `128 q … 128 q + 127` of batch entry `b`. -/
def blockTotal (g : (Fin 11 → EReal) → BitVec 32 → Fin 11 → EReal) (X : (⟨4, ![8, 11, 512, 512]⟩ : Shape).Idx → EReal)
    (T : (⟨3, ![8, 512, 512]⟩ : Shape).Idx → BitVec 32) (b : Fin 8) (q : Fin 4) (k : Fin 11) : EReal :=
  ∑ r : Fin 128, ∑ w : Fin 512,
    g (col X b ⟨q.val * 128 + r.val, by have := q.isLt; have := r.isLt; omega⟩ w)
      (T (ix3 b ⟨q.val * 128 + r.val, by have := q.isLt; have := r.isLt; omega⟩ w)) k

end Cert.Dice

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.BodyValue.lean ====
/-
  The body's accumulators read entry by entry on the extended reals.

  The softmax of a block is read plane by plane: the largest of the eleven planes at a position (from -infinity), the
  planes shifted by it and exponentiated, their sum over the eleven planes, the quotient. The mask and the one-hot planes
  are conditions turned into 0 or 1: the body widens the condition to a word and converts the word, which is the number
  of the condition. A plane sum is the double sum over the plane's 128 rows and 512 columns. So after the body entry k of
  the first accumulator is what it held plus the double sum of the position terms p_k · q_k, and entry k of the second
  is what it held plus the double sum of p_k + q_k.
-/
import proofs.«139630_j8839042695183_1_alg».proof.Proof.Body
import proofs.«139630_j8839042695183_1_alg».proof.Proof.Spec
import proofs.«139630_j8839042695183_1_alg».proof.Proof.LibMaxFold
import proofs.«139630_j8839042695183_1_alg».proof.Proof.LibIdxSums
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem Idealize.ShloMosaic.ValueIdx

namespace Cert.KernelIdeal.BodyValue

open Cert.KernelIdeal Cert.KernelIdeal.Gen Cert.KernelIdeal.Body Cert.Dice

/-! ## The softmax in named pieces -/

section Pieces
variable {F : FTy → Type} [FloatOps F]

/-- At each position the largest of the eleven planes, from -infinity. -/
def planeMax (v : FVec F S11x128x512 .f32) : FVec F S128x512 .f32 :=
  maximumf (broadcast S128x512 (Scalar.ofBits .f32 0xFF800000#32))
    (multiReduction .maximumf [0] S128x512 v 0xFF800000#32 reduces_S11x128x512_S128x512 (.inl rfl) rfl)

/-- At each position the sum of the eleven planes. -/
def planeAdd (v : FVec F S11x128x512 .f32) : FVec F S128x512 .f32 :=
  multiReduction .add [0] S128x512 v 0x00000000#32 reduces_S11x128x512_S128x512 (.inl rfl) rfl

/-- One plane repeated as eleven planes. -/
def spread (y : FVec F S128x512 .f32) : FVec F S11x128x512 .f32 :=
  broadcastTo S11x128x512 (shapeCast S1x128x512 y shapeCasts_S128x512_S1x128x512) broadcasts_S1x128x512_S11x128x512

/-- The softmax over the eleven planes. -/
def softmaxOf (v : FVec F S11x128x512 .f32) : FVec F S11x128x512 .f32 :=
  divf (exp (subf v (spread (planeMax v)))) (spread (planeAdd (exp (subf v (spread (planeMax v))))))

/-- The body's softmax is that, of the block seen as eleven planes. -/
theorem pay5_eq (x0 : Vec F S1x11x128x512 .f32) :
    k0_pay5 x0 = softmaxOf (shapeCast S11x128x512 x0 shapeCasts_S1x11x128x512_S11x128x512) := rfl

/-- A repeated plane read at plane `n`, row `r`, column `w` is the plane at `(r, w)`. -/
theorem spread_apply (y : FVec F S128x512 .f32) (n : Fin 11) (r : Fin 128) (w : Fin 512) :
    spread y (ix3 n r w) = y (ix2 r w) := by
  unfold spread
  rw [broadcastTo_apply _ _ _ (ix3 (0 : Fin 1) r w) (fun a => match a with | ⟨0, _⟩ => rfl | ⟨1, _⟩ => rfl | ⟨2, _⟩ => rfl)]
  exact shapeCast_ab_1ab_apply y _ 0 r w

/-- The targets' plane read at `(r, w)` is the block at `(0, r, w)`. -/
theorem pay4_apply (x1 : Vec F S1x128x512 .i32) (r : Fin 128) (w : Fin 512) : k0_pay4 x1 (ix2 r w) = x1 (ix3 (0 : Fin 1) r w) :=
  shapeCast_1ab_ab_apply x1 _ r w

end Pieces

/-! ## The pieces on the extended reals -/

/-- Position `(r, w)` of the reduced plane with plane coordinate `n` put back is `(n, r, w)`. -/
theorem lift_plane (h : S11x128x512.Reduces [0] S128x512) (r : Fin 128) (w : Fin 512) (n : Fin 11) :
    h.lift (ix2 r w) n = ix3 n r w :=
  funext fun a => Fin.ext (match a with | ⟨0, _⟩ => rfl | ⟨1, _⟩ => rfl | ⟨2, _⟩ => rfl)

theorem planeMax_apply (v : FVec Ideal S11x128x512 .f32) (r : Fin 128) (w : Fin 512) :
    planeMax v (ix2 r w) = shift (fun n => v (ix3 n r w)) := by
  have e : (v ∘ (reduces_S11x128x512_S128x512).lift (ix2 r w)) = fun n : Fin 11 => v (ix3 n r w) :=
    funext fun n => congrArg v (lift_plane _ r w n)
  unfold planeMax shift
  refine (maximumf_apply _ _ (ix2 r w)).trans ?_
  refine congrArg (max (Ideal.ofBits .f32 0xFF800000#32)) ?_
  refine (Cert.Lib.MaxFold.maxRed_apply v reduces_S11x128x512_S128x512 _ _ (ix2 r w)).trans ?_
  exact congrArg (fun f => (Finset.univ : Finset (Fin 11)).fold max ⊥ f) e

theorem planeAdd_apply (v : FVec Ideal S11x128x512 .f32) (r : Fin 128) (w : Fin 512) :
    planeAdd v (ix2 r w) = ∑ n : Fin 11, v (ix3 n r w) := by
  unfold planeAdd
  exact (Ideal.multiReduction_add_single v 0x00000000#32 reduces_S11x128x512_S128x512 (.inl rfl) rfl (ix2 r w)).trans
    (Finset.sum_congr rfl fun n _ => congrArg v (lift_plane _ r w n))

/-- The softmax over the planes, read at `(n, r, w)`: the softmax of the eleven values at `(r, w)`, entry `n`. -/
theorem softmaxOf_apply (v : FVec Ideal S11x128x512 .f32) (n : Fin 11) (r : Fin 128) (w : Fin 512) :
    softmaxOf v (ix3 n r w) = smax (fun j => v (ix3 j r w)) n := by
  unfold softmaxOf smax
  show Ideal.div (Ideal.exp (v (ix3 n r w) - spread (planeMax v) (ix3 n r w)))
    (spread (planeAdd (exp (subf v (spread (planeMax v))))) (ix3 n r w)) = _
  rw [spread_apply, spread_apply, planeMax_apply, planeAdd_apply]
  refine congrArg _ (Finset.sum_congr rfl fun j _ => ?_)
  show Ideal.exp (v (ix3 j r w) - spread (planeMax v) (ix3 j r w)) = _
  rw [spread_apply, planeMax_apply]

/-- A condition widened to a word and converted is the condition's number. -/
theorem bit_conv (b : BitVec 1) : (FloatOps.sitofp .f32 (b.setWidth 32) : Ideal .f32) = bitVal b := by
  show ((((b.setWidth 32).toInt : ℝ)) : EReal) = ((b.toNat : ℝ) : EReal)
  rw [toInt_setWidth_bit]
  norm_cast

/-- The mask at `(r, w)`: "the target there is not 255". -/
theorem pay6_apply (x1 : Vec Ideal S1x128x512 .i32) (r : Fin 128) (w : Fin 512) :
    k0_pay6 (F := Ideal) x1 (ix2 r w) = keep (x1 (ix3 (0 : Fin 1) r w)) := by
  unfold k0_pay6 keep
  show FloatOps.sitofp .f32 ((IntOp.cmpi .ne (k0_pay4 (F := Ideal) x1 (ix2 r w)) 255#32).setWidth 32) = _
  rw [pay4_apply, bit_conv]

theorem maskedProb_apply (n : Fin 11) (hs : S11x128x512.Slices ![n.val, 0, 0] S1x128x512) (p : FVec Ideal S11x128x512 .f32)
    (mk : FVec Ideal S128x512 .f32) (r : Fin 128) (w : Fin 512) :
    maskedProb n.val hs p mk (ix2 r w) = p (ix3 n r w) * mk (ix2 r w) := by
  unfold maskedProb
  show shapeCast S128x512 (extractStridedSlice S1x128x512 ![n.val, 0, 0] p hs) _ (ix2 r w) * mk (ix2 r w) = _
  rw [shapeCast_1ab_ab_apply, extractStridedSlice_apply _ p hs (ix3 (0 : Fin 1) r w) (ix3 n r w)
    (fun a => match a with | ⟨0, _⟩ => (Nat.add_zero _).symm | ⟨1, _⟩ => (Nat.zero_add _).symm | ⟨2, _⟩ => (Nat.zero_add _).symm)]

theorem maskedHot_apply (n : Fin 11) (t : IVec S128x512 32) (mk : FVec Ideal S128x512 .f32) (r : Fin 128) (w : Fin 512) :
    maskedHot n.val t mk (ix2 r w) = hot (t (ix2 r w)) n.val * mk (ix2 r w) := by
  unfold maskedHot hot
  show FloatOps.sitofp .f32 ((IntOp.cmpi .eq (t (ix2 r w)) (BitVec.ofNat 32 n.val)).setWidth 32) * mk (ix2 r w) = _
  rw [bit_conv]

/-- A plane sum is the double sum over rows and columns. -/
theorem planeSum_apply (v : FVec Ideal S128x512 .f32) : planeSum v = ∑ r : Fin 128, ∑ w : Fin 512, v (ix2 r w) := by
  unfold planeSum extractAt
  refine (shapeCast_apply _ shapeCasts_S1_S1x1x1 _ (ix1 (0 : Fin 1)) (by
    rw [Shape.rowMajor_val_one, Shape.rowMajor_val_three]; rfl)).trans ?_
  refine (Ideal.multiReduction_add_total (shapeCast S1x128x512 v shapeCasts_S128x512_S1x128x512) 0x00000000#32
    reduces_S1x128x512_S1 (fun b => match b with | ⟨0, _⟩ => rfl) (.inl rfl) rfl (ix1 (0 : Fin 1))).trans ?_
  refine (Cert.Lib.IdxSums.sum_idx3 _).trans ?_
  rw [Fin.sum_univ_one]
  exact Finset.sum_congr rfl fun r _ => Finset.sum_congr rfl fun w _ => shapeCast_ab_1ab_apply v _ 0 r w

/-! ## The accumulators at an entry -/

/-- The eleven logits of the block at row `r`, column `w`. -/
def bcol (x0 : Vec Ideal S1x11x128x512 .f32) (r : Fin 128) (w : Fin 512) : Fin 11 → EReal := fun n => x0 (ix4 (0 : Fin 1) n r w)

theorem pay5_apply (x0 : Vec Ideal S1x11x128x512 .f32) (n : Fin 11) (r : Fin 128) (w : Fin 512) :
    k0_pay5 (F := Ideal) x0 (ix3 n r w) = smax (bcol x0 r w) n := by
  rw [pay5_eq, softmaxOf_apply]
  exact congrArg (fun f => smax f n) (funext fun j => shapeCast_1abc_abc_apply x0 _ j r w)

theorem accInter_apply (x0 : Vec Ideal S1x11x128x512 .f32) (x1 : Vec Ideal S1x128x512 .i32) (acc : Vec Ideal S11 .f32) (k : Fin 11) :
    accInter (k0_pay4 (F := Ideal) x1) (k0_pay5 x0) (k0_pay6 x1) acc (ix1 k)
      = acc (ix1 k) + ∑ r : Fin 128, ∑ w : Fin 512, interTerm (bcol x0 r w) (x1 (ix3 (0 : Fin 1) r w)) k := by
  unfold accInter
  show shapeCast S11 acc _ (ix1 k) + concatenate S11 0 _ _ (ix1 k) = _
  rw [shapeCast_self]
  refine congrArg (acc (ix1 k) + ·) ?_
  refine (concatenate_ofFn_unit_apply (t := S11) (s₁ := S1) (0 : Fin 1) _ _ rfl rfl (ix1 k) k rfl (ix1 (0 : Fin 1))
    (fun b hb => (hb (Subsingleton.elim _ _)).elim)).trans ?_
  show planeSum _ = _
  rw [planeSum_apply]
  refine Finset.sum_congr rfl fun r _ => Finset.sum_congr rfl fun w _ => ?_
  show maskedProb k.val _ _ _ (ix2 r w) * maskedHot k.val _ _ (ix2 r w) = _
  rw [maskedProb_apply, maskedHot_apply, pay5_apply, pay6_apply, pay4_apply]
  rfl

theorem accCard_apply (x0 : Vec Ideal S1x11x128x512 .f32) (x1 : Vec Ideal S1x128x512 .i32) (acc : Vec Ideal S11 .f32) (k : Fin 11) :
    accCard (k0_pay4 (F := Ideal) x1) (k0_pay5 x0) (k0_pay6 x1) acc (ix1 k)
      = acc (ix1 k) + ∑ r : Fin 128, ∑ w : Fin 512, cardTerm (bcol x0 r w) (x1 (ix3 (0 : Fin 1) r w)) k := by
  unfold accCard
  show shapeCast S11 acc _ (ix1 k) + concatenate S11 0 _ _ (ix1 k) = _
  rw [shapeCast_self]
  refine congrArg (acc (ix1 k) + ·) ?_
  refine (concatenate_ofFn_unit_apply (t := S11) (s₁ := S1) (0 : Fin 1) _ _ rfl rfl (ix1 k) k rfl (ix1 (0 : Fin 1))
    (fun b hb => (hb (Subsingleton.elim _ _)).elim)).trans ?_
  show planeSum _ = _
  rw [planeSum_apply]
  refine Finset.sum_congr rfl fun r _ => Finset.sum_congr rfl fun w _ => ?_
  show maskedProb k.val _ _ _ (ix2 r w) + maskedHot k.val _ _ (ix2 r w) = _
  rw [maskedProb_apply, maskedHot_apply, pay5_apply, pay6_apply, pay4_apply]
  rfl

end Cert.KernelIdeal.BodyValue

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Regroup.lean ====
/-
  The sum over all positions, regrouped as the grid visits them.

  The 512 rows of a batch entry are four blocks of 128 rows, so the sum over the rows is the sum over the four blocks of
  the sums inside each; and the 32 grid points, in order, are the pairs (batch entry, block) with the batch entry the
  slower coordinate: point s is (s / 4, s % 4). Both steps only regroup a finite sum.
-/
import proofs.«139630_j8839042695183_1_alg».proof.Proof.Spec
import proofs.«139630_j8839042695183_1_alg».proof.Proof.LibBlockSum

noncomputable section

open Idealize.ShloMosaic Idealize.ShloMosaic.ValueIdx

namespace Cert.Dice

variable (g : (Fin 11 → EReal) → BitVec 32 → Fin 11 → EReal) (X : (⟨4, ![8, 11, 512, 512]⟩ : Shape).Idx → EReal)
  (T : (⟨3, ![8, 512, 512]⟩ : Shape).Idx → BitVec 32)

/-- The sum over all positions is the sum over batch entries and row blocks of the block sums. -/
theorem total_eq_blocks (k : Fin 11) : total g X T k = ∑ b : Fin 8, ∑ q : Fin 4, blockTotal g X T b q k := by
  unfold total blockTotal
  refine Finset.sum_congr rfl fun b _ => ?_
  exact Cert.BlockSum.sum_blocks_of_eq 4 128 512 rfl (fun h => ∑ w : Fin 512, g (col X b h w) (T (ix3 b h w)) k)

/-- The block the grid's point `s` works on, for any natural number `s` (points are `s < 32`). -/
def pointBlock (s : ℕ) (k : Fin 11) : EReal :=
  blockTotal g X T ⟨s / 4 % 8, Nat.mod_lt _ (by decide)⟩ ⟨s % 4, Nat.mod_lt _ (by decide)⟩ k

/-- The blocks of the 32 grid points, summed in grid order, are the sum over all positions. -/
theorem sum_points (k : Fin 11) : ∑ s ∈ Finset.range 32, pointBlock g X T s k = total g X T k := by
  rw [total_eq_blocks, Finset.sum_range, Cert.BlockSum.sum_blocks_of_eq 8 4 32 rfl]
  refine Finset.sum_congr rfl fun b _ => Finset.sum_congr rfl fun q _ => ?_
  have hb := b.isLt
  have hq := q.isLt
  have e1 : (b.val * 4 + q.val) / 4 % 8 = b.val := by omega
  have e2 : (b.val * 4 + q.val) % 4 = q.val := by omega
  unfold pointBlock
  exact congrArg₂ (fun b' q' => blockTotal g X T b' q' k) (Fin.ext e1) (Fin.ext e2)

end Cert.Dice

end
-- ==== Proof.Accum.lean ====
/-
  The two accumulators across the grid, and the arrays they are written back to.

  Grid point t works on batch entry t / 4 and rows 128 (t % 4) … 128 (t % 4) + 127: its block of the logits holds, at
  (0, n, r, w), the whole array's entry (t / 4, n, 128 (t % 4) + r, w), and its block of the targets likewise. So what the
  point adds to entry k of an accumulator is the block sum of the position terms. The first point starts from zero, every
  later point from what the point before left (the accumulators' block never moves, so it is not written back between
  points), and by induction on the point the accumulator after point n holds the block sums of points 0 … n. After the
  last point that is the sum over all positions, and the one write-back, after the last point, writes the whole array.
-/
import proofs.«139630_j8839042695183_1_alg».proof.Proof.BodyValue
import proofs.«139630_j8839042695183_1_alg».proof.Proof.Regroup
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Body Cert.KernelIdeal.BodyValue Cert.Dice

variable (m : (ℓ : Loc nD τ sig) → Buf (Elt Ideal) ℓ) (ρ : Dev nD → PrngReg)

/-- The logits and the targets as the region finds them. -/
abbrev X (c : Dev nD) : (⟨4, ![8, 11, 512, 512]⟩ : Shape).Idx → EReal := V m c main_arg0
abbrev T (c : Dev nD) : (⟨3, ![8, 512, 512]⟩ : Shape).Idx → BitVec 32 := V m c main_arg1

/-- Where the two input windows' blocks sit at each grid point. -/
theorem idx_facts : ∀ t : Fin cfg0.N,
    win0_0.index t 0 = t.val / 4 ∧ win0_0.index t 1 = 0 ∧ win0_0.index t 2 = t.val % 4 ∧ win0_0.index t 3 = 0
    ∧ win0_1.index t 0 = t.val / 4 ∧ win0_1.index t 1 = t.val % 4 ∧ win0_1.index t 2 = 0 :=
  (by decide +kernel : ∀ t : Fin grid0.N,
    win0_0.index t 0 = t.val / 4 ∧ win0_0.index t 1 = 0 ∧ win0_0.index t 2 = t.val % 4 ∧ win0_0.index t 3 = 0
    ∧ win0_1.index t 0 = t.val / 4 ∧ win0_1.index t 1 = t.val % 4 ∧ win0_1.index t 2 = 0)

/-- The batch entry and the row of the whole arrays that a grid point's block row `r` is. -/
def bOf (t : Fin cfg0.N) : Fin 8 := ⟨t.val / 4 % 8, Nat.mod_lt _ (by decide)⟩
def rowOf (t : Fin cfg0.N) (r : Fin 128) : Fin 512 :=
  ⟨t.val % 4 * 128 + r.val, by have := r.isLt; have := Nat.mod_lt t.val (show 0 < 4 by decide); omega⟩

/-- The logits block of point `t` at `(0, n, r, w)` is the whole array at `(t / 4, n, 128 (t % 4) + r, w)`. -/
theorem iblk0_apply (c : Dev nD) (t : Fin cfg0.N) (n : Fin 11) (r : Fin 128) (w : Fin 512) :
    (iblk m c 0 t : Vec Ideal S1x11x128x512 .f32) (ix4 (0 : Fin 1) n r w) = X m c (ix4 (bOf t) n (rowOf t r) w) := by
  have hN : t.val < 32 := lt_of_lt_of_eq t.isLt (show cfg0.N = 32 from N_0)
  obtain ⟨h0, h1, h2, h3, -, -, -⟩ := idx_facts t
  unfold iblk
  rw [View.read_apply]
  show V m c main_arg0 _ = V m c main_arg0 _
  congr 1
  funext a
  apply Fin.ext
  match a with
  | ⟨0, _⟩ => show win0_0.index t 0 * 1 + 1 * 0 = t.val / 4 % 8; rw [h0]; omega
  | ⟨1, _⟩ => show win0_0.index t 1 * 11 + 1 * n.val = n.val; rw [h1]; omega
  | ⟨2, _⟩ => show win0_0.index t 2 * 128 + 1 * r.val = t.val % 4 * 128 + r.val; rw [h2]; omega
  | ⟨3, _⟩ => show win0_0.index t 3 * 512 + 1 * w.val = w.val; rw [h3]; omega

/-- The targets block of point `t` at `(0, r, w)` is the whole array at `(t / 4, 128 (t % 4) + r, w)`. -/
theorem iblk1_apply (c : Dev nD) (t : Fin cfg0.N) (r : Fin 128) (w : Fin 512) :
    (iblk m c 1 t : Vec Ideal S1x128x512 .i32) (ix3 (0 : Fin 1) r w) = T m c (ix3 (bOf t) (rowOf t r) w) := by
  have hN : t.val < 32 := lt_of_lt_of_eq t.isLt (show cfg0.N = 32 from N_0)
  obtain ⟨-, -, -, -, h0, h1, h2⟩ := idx_facts t
  unfold iblk
  rw [View.read_apply]
  show V m c main_arg1 _ = V m c main_arg1 _
  congr 1
  funext a
  apply Fin.ext
  match a with
  | ⟨0, _⟩ => show win0_1.index t 0 * 1 + 1 * 0 = t.val / 4 % 8; rw [h0]; omega
  | ⟨1, _⟩ => show win0_1.index t 1 * 128 + 1 * r.val = t.val % 4 * 128 + r.val; rw [h1]; omega
  | ⟨2, _⟩ => show win0_1.index t 2 * 512 + 1 * w.val = w.val; rw [h2]; omega

/-- What point `t` adds to entry `k` of an accumulator: the block sum of the position terms. -/
theorem point_sum (g : (Fin 11 → EReal) → BitVec 32 → Fin 11 → EReal) (c : Dev nD) (t : Fin cfg0.N) (k : Fin 11) :
    ∑ r : Fin 128, ∑ w : Fin 512, g (bcol (iblk m c 0 t) r w) ((iblk m c 1 t : Vec Ideal S1x128x512 .i32) (ix3 (0 : Fin 1) r w)) k
      = pointBlock g (X m c) (T m c) t.val k := by
  unfold pointBlock blockTotal
  refine Finset.sum_congr rfl fun r _ => Finset.sum_congr rfl fun w _ => ?_
  rw [iblk1_apply]
  exact congrArg (fun f => g f _ k) (funext fun n => iblk0_apply m c t n r w)

/-- THE RUNNING SUMS: after point `n` entry `k` of the two accumulators holds the block sums of points `0 … n`. -/
theorem outsAt_eq (c : Dev nD) (k : Fin 11) : ∀ (n : ℕ) (hn : n < cfg0.N),
    (outsAt0 m c n hn).1 (ix1 k) = ∑ s ∈ Finset.range (n + 1), pointBlock interTerm (X m c) (T m c) s k
    ∧ (outsAt0 m c n hn).2 (ix1 k) = ∑ s ∈ Finset.range (n + 1), pointBlock cardTerm (X m c) (T m c) s k
  | 0, hn => by
    rw [outsAt0_A m c ⟨0, hn⟩ rfl]
    dsimp only
    rw [out_A_2, out_A_3, accInter_apply, accCard_apply, point_sum m interTerm c ⟨0, hn⟩ k, point_sum m cardTerm c ⟨0, hn⟩ k,
      Finset.sum_range_one, Finset.sum_range_one]
    show Ideal.ofBits .f32 0x00000000#32 + _ = _ ∧ Ideal.ofBits .f32 0x00000000#32 + _ = _
    rw [Ideal.ofBits_zero_f32, zero_add, zero_add]
    exact ⟨rfl, rfl⟩
  | n + 1, hn => by
    have hN : cfg0.N = 32 := N_0
    have hB : ¬(⟨n + 1, hn⟩ : Fin cfg0.N).val % 32 = 0 := by dsimp only; omega
    obtain ⟨ih1, ih2⟩ := outsAt_eq c k n (Nat.lt_of_succ_lt hn)
    rw [outsAt0_B m c ⟨n + 1, hn⟩ hB]
    dsimp only
    rw [out_B_2, out_B_3, accInter_apply, accCard_apply, point_sum m interTerm c ⟨n + 1, hn⟩ k,
      point_sum m cardTerm c ⟨n + 1, hn⟩ k, Finset.sum_range_succ _ (n + 1), Finset.sum_range_succ _ (n + 1)]
    exact ⟨congrArg (· + _) ih1, congrArg (· + _) ih2⟩

/-- The two result arrays of the region: class `k`'s two sums over all positions. -/
def interArr (c : Dev nD) : Buf (Elt Ideal) ((c : Thread nD τ).loc main_v0_0) := fun j => total interTerm (X m c) (T m c) (j 0)
def cardArr (c : Dev nD) : Buf (Elt Ideal) ((c : Thread nD τ).loc main_v0_1) := fun j => total cardTerm (X m c) (T m c) (j 0)

/-- After the last point the accumulators hold the two sums. -/
theorem last_eq (c : Dev nD) (hl : 31 < cfg0.N) :
    (outsAt0 m c 31 hl).1 = interArr m c ∧ (outsAt0 m c 31 hl).2 = cardArr m c := by
  constructor
  · funext j
    obtain ⟨k, rfl⟩ : ∃ k : Fin 11, j = ix1 k := ⟨j 0, eq_ix1 j⟩
    rw [(outsAt_eq m c k 31 hl).1]
    exact sum_points interTerm (X m c) (T m c) k
  · funext j
    obtain ⟨k, rfl⟩ : ∃ k : Fin 11, j = ix1 k := ⟨j 0, eq_ix1 j⟩
    rw [(outsAt_eq m c k 31 hl).2]
    exact sum_points cardTerm (X m c) (T m c) k

end Cert.KernelIdeal.Accum

end
-- ==== Proof.KernelRun.lean ====
/-
  The kernel program's run, read: its result is the host's closing lines applied to the two sums.

  The accumulators' block is the whole array and is written back once, after the last grid point, so each result array of
  the region ends holding what its accumulator held then: the sums over all positions. The lines after the region form,
  from the two arrays, (2 · inter + 1) / (card + 1) class by class, the mean of the eleven quotients, and one minus it.
-/
import proofs.«139630_j8839042695183_1_alg».proof.Proof.Accum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Accum Cert.Dice

variable (m : (ℓ : Loc nD τ sig) → Buf (Elt Ideal) ℓ) (ρ : Dev nD → PrngReg)

/-- The last grid point, the one after which the accumulators are written back. -/
def tLast : Fin cfg0.N := ⟨31, by decide⟩

theorem flushed2_eq (c : Dev nD) (t : Fin cfg0.N) (hf : (cfg0.win 2).flush t = true) :
    (dats m 0 c).flushed 2 t = ((cfg0.win 2).blk t).view.read (Elt Ideal) (interArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, show (outsAt0 m c tLast.val tLast.isLt).1 = interArr m c from (last_eq m c tLast.isLt).1]
  have hz' : (fun a => win0_2.index tLast a * main_v0_0.ty.shape.size a) = fun _ => 0 := funext fun a => by fin_cases a; decide
  exact (Memref.read_access_unit_zero (Elt Ideal) main_v0_0 hz' (fun a => by rw [congrFun hz' a]; simp) (interArr m c)).symm

theorem flushed3_eq (c : Dev nD) (t : Fin cfg0.N) (hf : (cfg0.win 3).flush t = true) :
    (dats m 0 c).flushed 3 t = ((cfg0.win 3).blk t).view.read (Elt Ideal) (cardArr m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, show (outsAt0 m c tLast.val tLast.isLt).2 = cardArr m c from (last_eq m c tLast.isLt).2]
  have hz' : (fun a => win0_3.index tLast a * main_v0_1.ty.shape.size a) = fun _ => 0 := funext fun a => by fin_cases a; decide
  exact (Memref.read_access_unit_zero (Elt Ideal) main_v0_1 hz' (fun a => by rw [congrFun hz' a]; simp) (cardArr m c)).symm

/-- The first result array of the region ends at the first sums: the last point's write-back covers it. -/
theorem final2 (c : Dev nD) : (dats m 0 c).arrAt 2 cfg0.N = interArr m c :=
  (dats m 0 c).arrAt_eq_of_cover 2 (interArr m c) (flushed2_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 11 := (i 0).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 11 from by decide +kernel]
        omega⟩

/-- The second result array of the region ends at the second sums. -/
theorem final3 (c : Dev nD) : (dats m 0 c).arrAt 3 cfg0.N = cardArr m c :=
  (dats m 0 c).arrAt_eq_of_cover 3 (cardArr m c) (flushed3_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 11 := (i 0).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 11 from by decide +kernel]
        omega⟩

/-- The lines after the region, as one function of the region's two result arrays. -/
def tail (a b : FVec Ideal S11 .f32) : FVec Ideal S_ .f32 :=
  subf (constant (F := Ideal) S_ .f32 0x3F800000#32)
    (Host.divf (F := Ideal)
      (Host.reduceAdd (F := Ideal)
        (Host.divf (F := Ideal)
          (addf (mulf (broadcastInDim S11 ![] bcast_S_S11 (constant (F := Ideal) S_ .f32 0x40000000#32)) a)
            (broadcastInDim S11 ![] bcast_S_S11 (constant (F := Ideal) S_ .f32 0x3F800000#32)))
          (addf b (broadcastInDim S11 ![] bcast_S_S11 (constant (F := Ideal) S_ .f32 0x3F800000#32))))
        (constant (F := Ideal) S_ .f32 0x00000000#32) reducesTo_S11_S_d0 h_S_)
      (constant (F := Ideal) S_ .f32 0x41300000#32))

/-- What the program's result buffer holds after the lines that follow the region: those lines of the two sums. -/
theorem tail_eq (c : Dev nD) :
    Pipeline.afterTail₀ cfgs (dats m) 0 (V0 m) [hostOps1] c main_v10 = tail (interArr m c) (cardArr m c) := by
  have e2 : Pipeline.withArrays (cfgs 0).spec c (V0 m c) (fun w => (dats m 0 c).arrAt w (cfgs 0).N) (Proc.devRef .tc main_v0_0)
      = interArr m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = cardArr m c := (Pipeline.withArrays_arr spec0 launch0.win.arr_inj c _ _ 3).trans (final3 m c)
  unfold Pipeline.afterTail₀
  simp only [List.flatten_cons, List.flatten_nil, List.append_nil]
  after_results
  exact congrArg₂ tail e2 e3

/-- THE RUN, READ: every weakly fair execution of the kernel program ends with its result at the closing lines of the
    two sums, and its arguments unchanged. -/
theorem run : θ_run defs (onTc (τ := τ) (main (F := Ideal))) ⟨m, fun _ => 0, ρ⟩ fun r => ∀ c : Dev nD,
      r.2.mem ((c.tc : Thread nD τ).loc main_v10) = tail (interArr m c) (cardArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference's two per-class sums are the specification's.

  The reference forms, over the whole arrays, the softmax along the class axis (the largest class value at a position
  from -infinity, the shifted exponentials, their sum over the classes, the quotient), the one-hot array of the targets
  moved to the class-second layout, the mask "target is not 255" repeated over the classes, the two masked arrays, and
  their product and sum. Read at (b, k, h, w) these are the position terms of the specification, and each of the two
  reductions over the batch, row and column axes adds, into class k, exactly the entries whose class coordinate is k.
-/
import proofs.«139630_j8839042695183_1_alg».proof.Proof.Gen.ReferenceIdeal.Read
import proofs.«139630_j8839042695183_1_alg».proof.Proof.Spec
import proofs.«139630_j8839042695183_1_alg».proof.Proof.LibMaxFold
import proofs.«139630_j8839042695183_1_alg».proof.Proof.LibIdxSums
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Dice

variable (X : (⟨S8x11x512x512, .f32⟩ : BufTy).Contents (Elt Ideal)) (T : (⟨S8x512x512, .i32⟩ : BufTy).Contents (Elt Ideal))
variable (b : Fin 8) (k : Fin 11) (h w : Fin 512)

/-- Position `(b, h, w)` of the class-reduced array with class coordinate `n` put back is `(b, n, h, w)`. -/
theorem lift_class (hr : S8x11x512x512.Reduces [1] S8x512x512) (n : Fin 11) : hr.lift (ix3 b h w) n = ix4 b n h w :=
  funext fun a => Fin.ext (match a with | ⟨0, _⟩ => rfl | ⟨1, _⟩ => rfl | ⟨2, _⟩ => rfl | ⟨3, _⟩ => rfl)

/-- The class axis alone can be reduced away from the whole array. -/
theorem reduces_class : S8x11x512x512.Reduces [1] S8x512x512 := by
  obtain ⟨h1, h2⟩ := reducesTo_S8x11x512x512_S8x512x512_d1
  exact ⟨h1, by decide, h2⟩

/-! The printed layout operations' index maps, composed, at `(b, k, h, w)`. -/
theorem idx_v3 : idx_main_v3 (idx_main_v4 (ix4 b k h w)) = ix3 b h w :=
  funext fun a => match a with | ⟨0, _⟩ => rfl | ⟨1, _⟩ => rfl | ⟨2, _⟩ => rfl
theorem idx_v8 : idx_main_v8 (idx_main_v9 (ix4 b k h w)) = ix3 b h w :=
  funext fun a => match a with | ⟨0, _⟩ => rfl | ⟨1, _⟩ => rfl | ⟨2, _⟩ => rfl
theorem idx_v7 (j : Fin 11) : idx_main_v7 (ix3 b h w) j = ix4 b j h w :=
  funext fun a => match a with | ⟨0, _⟩ => rfl | ⟨1, _⟩ => rfl | ⟨2, _⟩ => rfl | ⟨3, _⟩ => rfl
theorem idx_v15 : idx_main_v15 (idx_main_v17 (ix4 b k h w)) = ix3 b h w :=
  funext fun a => match a with | ⟨0, _⟩ => rfl | ⟨1, _⟩ => rfl | ⟨2, _⟩ => rfl
theorem idx_v15' : idx_main_v15 (idx_main_v19 (ix4 b k h w)) = ix3 b h w :=
  funext fun a => match a with | ⟨0, _⟩ => rfl | ⟨1, _⟩ => rfl | ⟨2, _⟩ => rfl
theorem idx_hot : idx_main_call0_v0 (idx_main_call0_v2 (idx_main_v12 (ix4 b k h w))) = ix3 b h w :=
  funext fun a => match a with | ⟨0, _⟩ => rfl | ⟨1, _⟩ => rfl | ⟨2, _⟩ => rfl

/-- The largest class value at a position, from -infinity. -/
theorem v2_apply : val_main_v2 (F := Ideal) X (ix3 b h w) = shift (col X b h w) := by
  rw [val_main_v2_apply, val_main_v1_apply, val_main_cst_0_apply, Ideal.maximumf_def, Ideal.ofBits_def]
  unfold shift
  refine congrArg (max (Ideal.ofBits .f32 0xFF800000#32)) ?_
  unfold val_main_v0 val_main_cst
  refine (Cert.Lib.MaxFold.hostMaxRed_apply X reducesTo_S8x11x512x512_S8x512x512_d1 reduces_class h_S_ (ix3 b h w)).trans ?_
  exact congrArg (fun f => (Finset.univ : Finset (Fin 11)).fold max ⊥ f) (funext fun n => congrArg X (lift_class b h w _ n))

theorem v4_apply : val_main_v4 (F := Ideal) X (ix4 b k h w) = shift (col X b h w) := by
  rw [val_main_v4_apply, val_main_v3_apply, idx_v3, v2_apply]

/-- The shifted exponential at `(b, k, h, w)`. -/
theorem v6_apply : val_main_v6 (F := Ideal) X (ix4 b k h w) = Ideal.exp (X (ix4 b k h w) - shift (col X b h w)) := by
  rw [val_main_v6_apply, val_main_v5_apply, v4_apply, Ideal.hostUnary_exp_def, Ideal.subf_def]

/-- The sum of the shifted exponentials over the classes. -/
theorem v9_apply : val_main_v9 (F := Ideal) X (ix4 b k h w) = ∑ j : Fin 11, Ideal.exp (X (ix4 b j h w) - shift (col X b h w)) := by
  rw [val_main_v9_apply, val_main_v8_apply, idx_v8, val_main_v7_apply, val_main_cst_1_apply, Ideal.ofBits_def,
    Ideal.ofBits_zero_f32, zero_add]
  refine Finset.sum_congr rfl fun j _ => ?_
  rw [idx_v7, v6_apply]

/-- The softmax along the class axis. -/
theorem v10_apply : val_main_v10 (F := Ideal) X (ix4 b k h w) = smax (col X b h w) k := by
  rw [val_main_v10_apply, v6_apply, v9_apply, Ideal.hostDivf_def]
  rfl

/-- The mask repeated over the classes. -/
theorem v17_apply : val_main_v17 (F := Ideal) T (ix4 b k h w) = keep (T (ix3 b h w)) := by
  rw [val_main_v17_apply, val_main_v16_apply, val_main_v15_apply, val_main_v14_apply, val_main_v13_apply, val_main_c_apply, idx_v15]
  rfl

theorem v19_apply : val_main_v19 (F := Ideal) T (ix4 b k h w) = keep (T (ix3 b h w)) := by
  rw [val_main_v19_apply, val_main_v16_apply, val_main_v15_apply, val_main_v14_apply, val_main_v13_apply, val_main_c_apply, idx_v15']
  rfl

/-- The one-hot array in the class-second layout. -/
theorem v12_apply : val_main_v12 (F := Ideal) T (ix4 b k h w) = hot (T (ix3 b h w)) k.val := by
  rw [val_main_v12_apply, val_main_v11_apply, val_main_call0_v4_apply, val_main_call0_v2_apply, val_main_call0_v0_apply,
    val_main_call0_v3_apply, val_main_call0_v1_apply, idx_hot]
  rfl

theorem v18_apply : val_main_v18 (F := Ideal) X T (ix4 b k h w) = pTerm (col X b h w) (T (ix3 b h w)) k := by
  rw [val_main_v18_apply, v10_apply, v17_apply, Ideal.mulf_def]; rfl

theorem v20_apply : val_main_v20 (F := Ideal) T (ix4 b k h w) = qTerm (T (ix3 b h w)) k := by
  rw [val_main_v20_apply, v12_apply, v19_apply, Ideal.mulf_def]; rfl

theorem v21_apply : val_main_v21 (F := Ideal) X T (ix4 b k h w) = interTerm (col X b h w) (T (ix3 b h w)) k := by
  rw [val_main_v21_apply, v18_apply, v20_apply, Ideal.mulf_def]; rfl

theorem v23_apply : val_main_v23 (F := Ideal) X T (ix4 b k h w) = cardTerm (col X b h w) (T (ix3 b h w)) k := by
  rw [val_main_v23_apply, v18_apply, v20_apply, Ideal.addf_def]; rfl

/-- An index of the whole array drops to class `k` exactly when its class coordinate is `k`. -/
theorem drop_iff (i : S8x11x512x512.Idx) :
    reducesTo_S8x11x512x512_S11_d0_2_3.drop i = ix1 k ↔ (i 1).val = k.val :=
  ⟨fun e => (Shape.ReducesTo.drop_apply_val_of_eq reducesTo_S8x11x512x512_S11_d0_2_3 i 0 1).symm.trans
      (congrArg (fun j : S11.Idx => (j 0).val) e),
    fun e => funext fun a => match a with
      | ⟨0, _⟩ => Fin.ext ((Shape.ReducesTo.drop_apply_val_of_eq reducesTo_S8x11x512x512_S11_d0_2_3 i 0 1).trans e)⟩

/-- The first reduction, at class `k`: the specification's first sum. -/
theorem v22_apply : val_main_v22 (F := Ideal) X T (ix1 k) = total interTerm X T k := by
  unfold val_main_v22 val_main_cst_2
  simp only [Host.reduceAdd, Ideal.hostReduceAdd_def]
  unfold Ideal.hostReduceAdd
  rw [Cert.Lib.IdxSums.sum_filter_axis1 _ k _ (drop_iff k)]
  show Ideal.ofBits .f32 0x00000000#32 + _ = _
  rw [Ideal.ofBits_zero_f32, zero_add]
  exact Finset.sum_congr rfl fun b _ => Finset.sum_congr rfl fun h _ => Finset.sum_congr rfl fun w _ => v21_apply X T b k h w

/-- The second reduction, at class `k`: the specification's second sum. -/
theorem v24_apply : val_main_v24 (F := Ideal) X T (ix1 k) = total cardTerm X T k := by
  unfold val_main_v24 val_main_cst_3
  simp only [Host.reduceAdd, Ideal.hostReduceAdd_def]
  unfold Ideal.hostReduceAdd
  rw [Cert.Lib.IdxSums.sum_filter_axis1 _ k _ (drop_iff k)]
  show Ideal.ofBits .f32 0x00000000#32 + _ = _
  rw [Ideal.ofBits_zero_f32, zero_add]
  exact Finset.sum_congr rfl fun b _ => Finset.sum_congr rfl fun h _ => Finset.sum_congr rfl fun w _ => v23_apply X T b k h w

end Cert.ReferenceIdeal.RefValue

end
-- ==== Proof.lean ====
/-
  The dice loss: a Pallas kernel that streams the logits once against the plain jnp computation.

  Both programs compute, for each of the eleven classes k, two sums over all 8 · 512 · 512 positions,

      inter k = ∑ p_k · q_k          card k = ∑ (p_k + q_k),

  where at a position p_k is the softmax of the eleven logits there, entry k, times the 0/1 factor "the target is not
  255", and q_k is the 0/1 factor "the target is k" times the same factor; and both then form the same closing lines:
  (2 · inter k + 1) / (card k + 1), the mean over the classes, one minus it.

  The reference takes each sum in one reduction over the batch, row and column axes. The kernel visits 32 blocks — a
  batch entry and 128 of its rows at a time, all eleven classes and all columns — keeps two accumulators of eleven entries
  in place across the grid, sets them to zero at the first block, adds each block's eleven sums, and writes them back once,
  after the last block. On the extended reals the position terms of the two programs are the same expressions (the
  kernel's exponential, quotient and 0/1 conversions are the host's), and the two ways of summing differ only in how a
  finite sum is grouped, which addition's commutativity and associativity allow at the infinities too: the precondition
  that the logits are finite is not used.

  The frames of the two kernel programs and the reference's run are generated and cited; written by hand are the
  specification (Spec), the body's value (Body, BodyValue), the accumulation over the grid and the regrouping (Accum,
  Regroup), the kernel program's run read at its result (KernelRun), and the reference's two sums (RefValue).
-/
import proofs.«139630_j8839042695183_1_alg».proof.Defs
import proofs.«139630_j8839042695183_1_alg».proof.Proof.Gen.Kernel
import proofs.«139630_j8839042695183_1_alg».proof.Proof.Gen.Kernel.Skeleton
import proofs.«139630_j8839042695183_1_alg».proof.Proof.Gen.Kernel.Launch
import proofs.«139630_j8839042695183_1_alg».proof.Proof.Gen.Kernel.Points
import proofs.«139630_j8839042695183_1_alg».proof.Proof.Gen.Kernel.Frame
import proofs.«139630_j8839042695183_1_alg».proof.Proof.Gen.KernelIdeal
import proofs.«139630_j8839042695183_1_alg».proof.Proof.Gen.KernelIdeal.Skeleton
import proofs.«139630_j8839042695183_1_alg».proof.Proof.Gen.KernelIdeal.Launch
import proofs.«139630_j8839042695183_1_alg».proof.Proof.Gen.KernelIdeal.Points
import proofs.«139630_j8839042695183_1_alg».proof.Proof.Gen.KernelIdeal.Frame
import proofs.«139630_j8839042695183_1_alg».proof.Proof.Gen.ReferenceIdeal
import proofs.«139630_j8839042695183_1_alg».proof.Proof.Gen.ReferenceIdeal.Run
import proofs.«139630_j8839042695183_1_alg».proof.Proof.Gen.ReferenceIdeal.Read
import proofs.«139630_j8839042695183_1_alg».proof.Proof.Gen.Pre_finite_inputs
import Idealize.ShloMosaic.Adequacy
import Idealize.ShloMosaic.Init
import proofs.«139630_j8839042695183_1_alg».proof.Proof.KernelRun
import proofs.«139630_j8839042695183_1_alg».proof.Proof.RefValue

noncomputable section

namespace Cert.Proof

open Idealize.ShloMosaic Idealize.ShloMosaic.TcCoe Idealize.SL.Sem Idealize.ShloMosaic.ValueIdx

/-- The reference's closing lines are the kernel program's, applied to the reference's two sums. -/
theorem ref_tail (X : (⟨Cert.ReferenceIdeal.S8x11x512x512, .f32⟩ : BufTy).Contents (Elt Ideal))
    (T : (⟨Cert.ReferenceIdeal.S8x512x512, .i32⟩ : BufTy).Contents (Elt Ideal)) :
    Cert.ReferenceIdeal.Read.val_main_v34 (F := Ideal) X T
      = Cert.KernelIdeal.KernelRun.tail (Cert.ReferenceIdeal.Read.val_main_v22 (F := Ideal) X T)
          (Cert.ReferenceIdeal.Read.val_main_v24 (F := Ideal) X T) := rfl

/-- The kernel's two result arrays are the reference's two sums of the same arguments. -/
theorem inter_eq (m : (ℓ : Loc Cert.KernelIdeal.nD Cert.KernelIdeal.τ Cert.KernelIdeal.sig) → Buf (Elt Ideal) ℓ) (c : Dev Cert.KernelIdeal.nD) :
    Cert.KernelIdeal.Accum.interArr m c
      = Cert.ReferenceIdeal.Read.val_main_v22 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext j
  obtain ⟨k, rfl⟩ : ∃ k : Fin 11, j = ix1 k := ⟨j 0, eq_ix1 j⟩
  exact (Cert.ReferenceIdeal.RefValue.v22_apply _ _ k).symm

theorem card_eq (m : (ℓ : Loc Cert.KernelIdeal.nD Cert.KernelIdeal.τ Cert.KernelIdeal.sig) → Buf (Elt Ideal) ℓ) (c : Dev Cert.KernelIdeal.nD) :
    Cert.KernelIdeal.Accum.cardArr m c
      = Cert.ReferenceIdeal.Read.val_main_v24 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext j
  obtain ⟨k, rfl⟩ : ∃ k : Fin 11, j = ix1 k := ⟨j 0, eq_ix1 j⟩
  exact (Cert.ReferenceIdeal.RefValue.v24_apply _ _ k).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- At the ideal instance the kernel program ends at the closing lines of its two accumulated sums, the reference at the
    same lines of its two reductions of arguments that agree; the sums are equal class by class. -/
theorem algebraic : Cert.algebraic_KernelIdeal_ReferenceIdeal := by
  intro m ρ m' ρ' _ hagree
  refine ⟨fun c => Cert.KernelIdeal.KernelRun.tail (Cert.KernelIdeal.Accum.interArr m c) (Cert.KernelIdeal.Accum.cardArr m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2, ref_tail]
  exact congrArg₂ Cert.KernelIdeal.KernelRun.tail (inter_eq m c).symm (card_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
